-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64 : Shape := ⟨1, ![64]⟩
abbrev S32 : Shape := ⟨1, ![32]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S16384x64 .f32) (main_arg1 : FVec F S64 .f32) (main_arg2 : FVec F S64 .f32) (main_arg3 : FVec F S32 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S16384x64 : Shape := ⟨2, ![16384, 64]⟩
abbrev S64 : Shape := ⟨1, ![64]⟩
abbrev S32 : Shape := ⟨1, ![32]⟩
abbrev S16384x16x4 : Shape := ⟨3, ![16384, 16, 4]⟩
abbrev S1x16x4 : Shape := ⟨3, ![1, 16, 4]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x2x16x128 : Shape := ⟨4, ![16384, 2, 16, 128]⟩
abbrev S512x16x4 : Shape := ⟨3, ![512, 16, 4]⟩
abbrev S512x2x16x128 : Shape := ⟨4, ![512, 2, 16, 128]⟩
abbrev S1x1x128 : Shape := ⟨3, ![1, 1, 128]⟩
abbrev S512x16x1 : Shape := ⟨3, ![512, 16, 1]⟩
abbrev S512x16x128 : Shape := ⟨3, ![512, 16, 128]⟩
abbrev S512x1x16x128 : Shape := ⟨4, ![512, 1, 16, 128]⟩
abbrev S16384x4096 : Shape := ⟨2, ![16384, 4096]⟩

abbrev nBuf : Space → Nat
  | .hbm => 13
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S16384x16x4, .f32⟩
  | .hbm, ⟨5, _⟩ => ⟨S1x16x4, .f32⟩
  | .hbm, ⟨6, _⟩ => ⟨S1x16x4, .f32⟩
  | .hbm, ⟨7, _⟩ => ⟨S1x32, .f32⟩
  | .hbm, ⟨8, _⟩ => ⟨S4x32, .f32⟩
  | .hbm, ⟨9, _⟩ => ⟨S128, .f32⟩
  | .hbm, ⟨10, _⟩ => ⟨S1x128, .f32⟩
  | .hbm, ⟨11, _⟩ => ⟨S16384x2x16x128, .f32⟩
  | .hbm, ⟨12, _⟩ => ⟨S16384x4096, .f32⟩
  | .local _ .vmem, ⟨0, _⟩ => ⟨S512x16x4, .f32⟩
  | .local _ .vmem, ⟨1, _⟩ => ⟨S512x16x4, .f32⟩
  | .local _ .vmem, ⟨2, _⟩ => ⟨S1x16x4, .f32⟩
  | .local _ .vmem, ⟨3, _⟩ => ⟨S1x16x4, .f32⟩
  | .local _ .vmem, ⟨4, _⟩ => ⟨S1x128, .f32⟩
  | .local _ .vmem, ⟨5, _⟩ => ⟨S512x2x16x128, .f32⟩
  | .local _ .vmem, ⟨6, _⟩ => ⟨S512x2x16x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384x64_S16384x16x4 : S16384x64.ShapeCasts S16384x16x4
  shapeCasts_S64_S1x16x4 : S64.ShapeCasts S1x16x4
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  inb_S512x16x4_S512x16x4_0_0_0 : ∀ a, (![0, 0, 0] : Fin 3 → Nat) a + S512x16x4.size a ≤ S512x16x4.size a
  h_S512x16x4 : 0 < S512x16x4.numel
  shapeCasts_S512x16x4_S512x16x4 : S512x16x4.ShapeCasts S512x16x4
  inb_S1x16x4_S1x16x4_0_0_0 : ∀ a, (![0, 0, 0] : Fin 3 → Nat) a + S1x16x4.size a ≤ S1x16x4.size a
  h_S1x16x4 : 0 < S1x16x4.numel
  shapeCasts_S1x16x4_S1x16x4 : S1x16x4.ShapeCasts S1x16x4
  broadcasts_S1x16x4_S512x16x4 : S1x16x4.Broadcasts S512x16x4
  iota_S1x1x128_d2_w32 : S1x1x128.Iotas .tc 32 [2]
  natLt_1_32 : 1 < 32
  slices_S512x16x4_o0_0_0_S512x16x1 : S512x16x4.Slices ![0, 0, 0] S512x16x1
  broadcasts_S512x16x1_S512x16x128 : S512x16x1.Broadcasts S512x16x128
  broadcasts_S1x1x128_S512x16x128 : S1x1x128.Broadcasts S512x16x128
  slices_S512x16x4_o0_0_1_S512x16x1 : S512x16x4.Slices ![0, 0, 1] S512x16x1
  slices_S512x16x4_o0_0_2_S512x16x1 : S512x16x4.Slices ![0, 0, 2] S512x16x1
  slices_S512x16x4_o0_0_3_S512x16x1 : S512x16x4.Slices ![0, 0, 3] S512x16x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  inb_S512x2x16x128_S512x1x16x128_0_0_0_0 : ∀ a, (![0, 0, 0, 0] : Fin 4 → Nat) a + S512x1x16x128.size a ≤ S512x2x16x128.size a
  h_S512x1x16x128 : 0 < S512x1x16x128.numel
  shapeCasts_S512x1x16x128_S512x16x128 : S512x1x16x128.ShapeCasts S512x16x128
  shapeCasts_S512x16x128_S512x1x16x128 : S512x16x128.ShapeCasts S512x1x16x128
  inb_S512x2x16x128_S512x1x16x128_0_1_0_0 : ∀ a, (![0, 1, 0, 0] : Fin 4 → Nat) a + S512x1x16x128.size a ≤ S512x2x16x128.size a
  shapeCasts_S16384x2x16x128_S16384x4096 : S16384x2x16x128.ShapeCasts S16384x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x4.size a ≤ S16384x16x4.size a
  hwx0_0 : ∀ i : grid0.Coords, EltTy.bits .f32 = 32 ∨ (Rect.block (s := S16384x16x4) S512x16x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x4.size a ≤ S1x16x4.size a
  hwx0_1 : ∀ i : grid0.Coords, EltTy.bits .f32 = 32 ∨ (Rect.block (s := S1x16x4) S1x16x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x4.size a ≤ S1x16x4.size a
  hwx0_2 : ∀ i : grid0.Coords, EltTy.bits .f32 = 32 ∨ (Rect.block (s := S1x16x4) S1x16x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2x16x128.size a ≤ S16384x2x16x128.size a
  hwx0_4 : ∀ i : grid0.Coords, EltTy.bits .f32 = 32 ∨ (Rect.block (s := S16384x2x16x128) S512x2x16x128.size (cc0_transform_4 i) (hinb0_4 i)).WholeWords (EltTy.packing .f32)

variable [Facts₀]

abbrev win0_0 : Pipeline.Window sig grid0 :=
  Pipeline.Window.ofSpec (Memref.whole main_v0) S512x16x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x2x16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S64 : Shape := ⟨1, ![64]⟩
abbrev S32 : Shape := ⟨1, ![32]⟩
abbrev S1x64 : Shape := ⟨2, ![1, 64]⟩
abbrev S_ : Shape := ⟨0, ![]⟩
abbrev S16384x64x1 : Shape := ⟨3, ![16384, 64, 1]⟩
abbrev S1x1x32 : Shape := ⟨3, ![1, 1, 32]⟩
abbrev S16384x64x32 : Shape := ⟨3, ![16384, 64, 32]⟩
abbrev S16384x2048 : Shape := ⟨2, ![16384, 2048]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S1x64, .f32⟩
  | .hbm, ⟨5, _⟩ => ⟨S16384x64, .f32⟩
  | .hbm, ⟨6, _⟩ => ⟨S16384x64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64x1, .f32⟩
  | .hbm, ⟨26, _⟩ => ⟨S1x1x32, .f32⟩
  | .hbm, ⟨27, _⟩ => ⟨S16384x64x32, .f32⟩
  | .hbm, ⟨28, _⟩ => ⟨S16384x64x32, .f32⟩
  | .hbm, ⟨29, _⟩ => ⟨S16384x64x32, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S64 : S_.BroadcastsInDim S64 (![] : Fin 0 → Fin S64.rank)
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S32_S1x1x32_2 : S32.BroadcastsInDim S1x1x32 (![2] : Fin 1 → Fin S1x1x32.rank)
  bcast_S16384x64x1_S16384x64x32_0_1_2 : S16384x64x1.BroadcastsInDim S16384x64x32 (![0, 1, 2] : Fin 3 → Fin S16384x64x32.rank)
  bcast_S1x1x32_S16384x64x32_0_1_2 : S1x1x32.BroadcastsInDim S16384x64x32 (![0, 1, 2] : Fin 3 → Fin S16384x64x32.rank)
  shapeCasts_S16384x64x32_S16384x2048 : S16384x64x32.ShapeCasts S16384x2048
  concatenates_S16384x2048_S16384x2048_S16384x4096_d1 : Shape.Concatenates [S16384x2048, S16384x2048] S16384x4096 1

variable [Facts₀]

class Facts : Prop extends Facts₀ where

variable [Facts]
-- ==== Proof.Lanes.lean ====
/-
  The arithmetic of one output element, away from any program.

  Every element of the result is `sin` or `cos` of `x · f`, where `x` is one action normalised to the interval
  [-1, 1], `x = min 1 (max (-1) ((a - lo) · (2 / (hi - lo)) + 1))`, and `f` one frequency (`cell`).

  The kernel spreads four normalised actions over 128 lanes, 32 lanes each: lane `l` takes action `l / 32`.
  It does so without a gather, as the sum over `k = 0 … 3` of action `k` times the indicator of `l / 32 = k`,
  the indicator an integer comparison converted to a float. Here: the integer side on one lane's word
  (`laneQuot`, `laneMask`, decided over the 128 lanes), the indicator's value as an extended real (`maskVal`),
  and the collapse of the four-term sum to the one selected term (`pick`) — which needs no finiteness:
  `x · 1 = x`, `x · 0 = 0` and `0 + x = x` hold for every extended real.
-/
import Idealize.ShloMosaic.PureOps.Ideal
import Idealize.ShloMosaic.Lib.ValueIdx

noncomputable section

namespace Cert.Fourier

open Idealize.ShloMosaic

/-! ## One element -/

/-- The action `a` of a box `[lo, hi]` normalised to `[-1, 1]` and clipped there. The three literals are the
    words of `1`, `-1` and `2`; they are the same words on both sides and are never evaluated. -/
def clipAct (a lo hi : EReal) : EReal :=
  min (Ideal.ofBits .f32 0x3F800000#32) (max (Ideal.ofBits .f32 0xBF800000#32)
    ((a - lo) * Ideal.div (Ideal.ofBits .f32 0x40000000#32) (hi - lo) + Ideal.ofBits .f32 0x3F800000#32))

/-- One element of the result: in the first half (`h = 0`) the sine, in the second the cosine, of the normalised
    action times the frequency. -/
def cell (h : Nat) (a lo hi fr : EReal) : EReal :=
  if h = 0 then Ideal.sin (clipAct a lo hi * fr) else Ideal.cos (clipAct a lo hi * fr)

/-- In the first half an element is the sine … -/
theorem cell_sin {h : Nat} (hh : h = 0) (a lo hi fr : EReal) : cell h a lo hi fr = Ideal.sin (clipAct a lo hi * fr) :=
  if_pos hh
/-- … and in the second the cosine. -/
theorem cell_cos {h : Nat} (hh : h ≠ 0) (a lo hi fr : EReal) : cell h a lo hi fr = Ideal.cos (clipAct a lo hi * fr) :=
  if_neg hh

/-! ## The whole result -/

/-- Column `j` of a result row holds, in each half of 2048 columns, 64 actions times 32 frequencies: the action of
    column `j` is `j % 2048 / 32` … -/
def actOf (j : Fin 4096) : Fin 64 := ⟨j.val % 2048 / 32, by have := j.isLt; omega⟩
/-- … and its frequency `j % 32`. -/
def bandOf (j : Fin 4096) : Fin 32 := ⟨j.val % 32, by omega⟩

/-- THE RESULT, `[16384, 4096]`, as one function of the four argument arrays (actions `[16384, 64]`, the box's lower
    and upper bounds `[64]`, frequencies `[32]`): element `(b, j)` is the sine (`j < 2048`) or cosine of action
    `actOf j` of row `b`, normalised by that action's bounds and clipped, times frequency `bandOf j`. -/
def result (act : (⟨2, ![16384, 64]⟩ : Shape).Idx → EReal) (lo hi : (⟨1, ![64]⟩ : Shape).Idx → EReal)
    (fr : (⟨1, ![32]⟩ : Shape).Idx → EReal) : (⟨2, ![16384, 4096]⟩ : Shape).Idx → EReal := fun i =>
  cell ((i 1).val / 2048) (act (ValueIdx.ix2 (i 0 : Fin 16384) (actOf (i 1)))) (lo (ValueIdx.ix1 (actOf (i 1))))
    (hi (ValueIdx.ix1 (actOf (i 1)))) (fr (ValueIdx.ix1 (bandOf (i 1))))

/-! ## The lane's action: `l / 32` on one word -/

/-- A lane's word divided by 32 rounding toward minus infinity, as the kernel spells floor division: the
    truncating quotient, lowered by one where dividend and divisor differ in sign and the remainder is not zero. -/
def laneQuot (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 32#32 0#32)) (Scalar.extui (Scalar.cmpi .slt 32#32 0#32))))
      (IntOp.cmpi .ne (IntOp.remsi .vector w 32#32) 0#32))
    (IntOp.subi (IntOp.divsi .vector w 32#32) 1#32)
    (IntOp.divsi .vector w 32#32)

/-- The action, of its group's four, that lane `l` takes: `l / 32`. -/
def laneAct (l : Fin 128) : Fin 4 := ⟨l.val / 32, by have := l.isLt; omega⟩

/-- The indicator of "this lane takes action `k`", as a 32-bit word: 1 or 0. -/
def laneMask (k w : BitVec 32) : BitVec 32 := (IntOp.cmpi .eq (laneQuot w) k).setWidth 32

/-- On each of the 128 lanes and for each of the four actions the indicator word is 1 exactly when
    `l / 32 = k` (no lane is negative, so the floor correction never fires). Decided lane by lane. -/
theorem laneMask_lane : ∀ (k : Fin 4) (l : Fin 128),
    laneMask (BitVec.ofNat 32 k.val) (BitVec.ofNat 32 l.val) = if l.val / 32 = k.val then 1#32 else 0#32 := by
  decide +kernel

/-- The indicator converted to a float, at the ideal instance: the extended real 1 or 0. -/
theorem maskVal (k : Fin 4) (l : Fin 128) :
    FloatOps.sitofp (F := Ideal) .f32 (laneMask (BitVec.ofNat 32 k.val) (BitVec.ofNat 32 l.val))
      = if l.val / 32 = k.val then (1 : EReal) else 0 := by
  rw [laneMask_lane]
  show (((if l.val / 32 = k.val then 1#32 else 0#32 : BitVec 32).toInt : ℝ) : EReal) = _
  split
  · have : (1#32 : BitVec 32).toInt = 1 := by decide
    rw [this]; simp
  · have : (0#32 : BitVec 32).toInt = 0 := by decide
    rw [this]; simp

/-! ## The four-term sum is the selected term -/

/-- Four extended reals, each times the indicator of `q = k`, summed in the kernel's order, are the `q`-th:
    the three other products are `0` and the selected one is itself, whatever the values (infinite ones too). -/
theorem pick (f : Fin 4 → EReal) (q : Fin 4) :
    f 0 * (if q.val = 0 then (1 : EReal) else 0) + f 1 * (if q.val = 1 then (1 : EReal) else 0)
      + f 2 * (if q.val = 2 then (1 : EReal) else 0) + f 3 * (if q.val = 3 then (1 : EReal) else 0) = f q := by
  fin_cases q <;> simp

end Cert.Fourier

end
-- ==== Proof.LibBroadcast3.lean ====
/-
  Layout operations of rank three read at an index given by coordinates: the forms a broadcast sum over two leading axes
  and a reduction over the trailing axis with kept dimensions produce.
    [a, b]    cast to      [a, 1, b]   reads (p, u, k) at (p, k);
    [a, b]    cast to      [a, b, 1]   reads (p, q, u) at (p, q);
    [a, 1, b] broadcast to [a, c, b]   reads (p, q, k) at (p, 0, k)   (a row block repeated along the middle axis);
    [1, c, b] broadcast to [a, c, b]   reads (p, q, k) at (0, q, k)   (one matrix repeated along the leading axis);
    [a, b, 1] broadcast to [a, b, c]   reads (p, q, k) at (p, q, 0)   (a column of scalars repeated along the trailing axis);
  and the source index that a reduction of [a, b, c] over its trailing axis inserts coordinate k into, over the result
  index (p, q), is (p, q, k), so that a float sum over that axis reads, at (p, q), the sum over k of the source at (p, q, k).
-/
import Idealize.ShloMosaic.Lib.ValueLayout
import Idealize.ShloMosaic.PureOps.Reduce
import Idealize.ShloMosaic.PureOps.Ideal.Laws

namespace Cert.Broadcast3

open Idealize.ShloMosaic Idealize.ShloMosaic.ValueIdx

variable {α : Type}

/-- An `[a, b]` array cast to `[a, 1, b]` reads, at `(p, u, k)`, the operand at `(p, k)`, whatever the unit coordinate:
    the row-major position of `(p, u, k)` in `[a, 1, b]` is `(p · 1 + 0) · b + k`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array broadcast to `[a, c, b]` reads, at `(p, q, k)`, the operand at `(p, 0, k)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (k : Fin b) :
    broadcastTo ⟨3, ![a, c, b]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- A `[1, c, b]` array broadcast to `[a, c, b]` reads, at `(p, q, k)`, the operand at `(0, q, k)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (k : Fin b) :
    broadcastTo ⟨3, ![a, c, b]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if c = 1 then 0 else q.val
    split
    · have := q.isLt; omega
    · rfl
  | ⟨2, _⟩ =>
    show k.val = if b = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing `[a, b, c]` over its trailing axis: the source index over the result index `(p, q)` with coordinate `k` on
    the dropped axis is `(p, q, k)`. -/
theorem lift_trailing {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, a float sum of `[a, b, c]` over its trailing axis reads, at `(p, q)`, the sum over `k` of the
    source at `(p, q, k)`. -/
theorem multiReduction_add_trailing {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_trailing h p q k)

end Cert.Broadcast3
-- ==== Proof.LibBroadcastRow.lean ====
/-
  A layout operation of rank three read at an index given by coordinates:
    [1, 1, c] broadcast to [a, b, c]   reads (p, q, k) at (0, 0, k)   (one row repeated along both leading axes).
-/
import Idealize.ShloMosaic.Lib.Pipeline.Value
import Idealize.ShloMosaic.Lib.ValueIdx

namespace Cert.BroadcastRow

open Idealize.ShloMosaic Idealize.ShloMosaic.ValueIdx

/-- A `[1, 1, c]` row broadcast to `[a, b, c]` reads, at `(p, q, k)`, the row at `(0, 0, k)`. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.BroadcastRow
-- ==== Proof.Payload.lean ====
/-
  The kernel body's arithmetic read at one element.

  The body loads a block of 512 batch rows of actions laid out [512, 16, 4] (16 groups of 4 actions) and the box's
  bounds laid out [1, 16, 4], normalises and clips every action (`normalised_apply`), then spreads each group's
  four values over 128 lanes — lane `l` takes action `l / 32` of its group — and multiplies by the lane's
  frequency, laid out [1, 128] (`spread_apply`). The spreading is the four-term sum of action times indicator
  that `Cert.Fourier.pick` collapses; the indicators are the integer lane arithmetic of `Cert.Fourier.laneMask`,
  which the body's integer vectors are, lane by lane, once the lane counter is read as its coordinate.
-/
import proofs.«169967_g17566416241471_cont_7to1_1500_2_alg».proof.Proof.Gen.KernelIdeal.Skeleton
import proofs.«169967_g17566416241471_cont_7to1_1500_2_alg».proof.Proof.Lanes
import proofs.«169967_g17566416241471_cont_7to1_1500_2_alg».proof.Proof.LibBroadcast3
import proofs.«169967_g17566416241471_cont_7to1_1500_2_alg».proof.Proof.LibBroadcastRow
import Idealize.ShloMosaic.Lib.Pipeline.Value
import Idealize.ShloMosaic.Lib.ValueIdx

noncomputable section

namespace Cert.Fourier

open Idealize.ShloMosaic Idealize.ShloMosaic.ValueIdx Cert.KernelIdeal Cert.KernelIdeal.Gen Cert.Broadcast3 Cert.BroadcastRow

/-! ## A layout read the body needs -/

/-- The slice of width one at offset `o` along the last axis of a `[512, 16, 4]` block reads, at `(p, g, 0)`,
    the block at `(p, g, o)`. -/
theorem slice_action {α : Type} (o : Fin 4) (v : S512x16x4.Idx → α) (h : S512x16x4.Slices ![0, 0, o.val] S512x16x1)
    (p : Fin 512) (g : Fin 16) (u : Fin 1) :
    extractStridedSlice S512x16x1 ![0, 0, o.val] v h (ix3 p g u) = v (ix3 p g o) :=
  extractStridedSlice_apply _ v h _ _ fun a => match a with
    | ⟨0, _⟩ => by show p.val = 0 + p.val; omega
    | ⟨1, _⟩ => by show g.val = 0 + g.val; omega
    | ⟨2, _⟩ => by show o.val = o.val + u.val; omega

/-! ## Normalising and clipping -/

/-- Element `(p, g, k)` of the body's clipped value: the action at `(p, g, k)` normalised by the box's bounds at
    `(0, g, k)` (the bounds are one row, repeated over the batch rows). -/
theorem normalised_apply (x0 : Vec Ideal S512x16x4 .f32) (x1 x2 : Vec Ideal S1x16x4 .f32)
    (p : Fin 512) (g : Fin 16) (k : Fin 4) :
    k0_pay2 (F := Ideal) x0 x1 x2 (ix3 p g k)
      = clipAct (x0 (ix3 p g k)) (x1 (ix3 (0 : Fin 1) g k)) (x2 (ix3 (0 : Fin 1) g k)) := by
  have e : ∀ y : S1x16x4.Idx → EReal,
      broadcastTo S512x16x4 y broadcasts_S1x16x4_S512x16x4 (ix3 p g k) = y (ix3 (0 : Fin 1) g k) :=
    fun y => broadcastTo_1cb_acb_apply y _ p g k
  unfold k0_pay2
  simp only [shapeCast_self, mulf_apply, addf_apply, subf_apply, divf_apply, maximumf_apply, minimumf_apply,
    broadcast_apply, e]
  rfl

/-! ## The lane indicators -/

/-- The body's floor quotient of the lane counter by 32, at lane `l`, is `laneQuot` of the lane's word: the lane
    counter along the last axis reads its coordinate, and every integer operation acts lane by lane. -/
theorem lane_quot_apply (l : Fin 128) :
    select (andi k0_pay4 k0_pay5) (subi k0_pay3 (broadcast S1x1x128 1#32)) k0_pay3 (ix3 (0 : Fin 1) (0 : Fin 1) l)
      = laneQuot (BitVec.ofNat 32 l.val) := by
  have hi : iota .tc S1x1x128 32 [2] iota_S1x1x128_d2_w32 (ix3 (0 : Fin 1) (0 : Fin 1) l) = BitVec.ofNat 32 l.val :=
    iota_single_apply .tc S1x1x128 32 2 iota_S1x1x128_d2_w32 _
  unfold k0_pay3 k0_pay4 k0_pay5 laneQuot
  simp only [select, andi, subi, cmpi, extui, divsi, remsi, broadcast, hi]

/-- The indicator of "lane `l` takes action `k`" as the body computes it — compare the quotient with `k`, widen
    the bit, convert to a float — is the extended real 1 or 0. -/
theorem indicator_apply (k : Fin 4) (l : Fin 128) :
    sitofp (F := Ideal) .f32 (extui 32 (cmpi .eq
        (select (andi k0_pay4 k0_pay5) (subi k0_pay3 (broadcast S1x1x128 1#32)) k0_pay3)
        (broadcast S1x1x128 (BitVec.ofNat 32 k.val))) natLt_1_32) (ix3 (0 : Fin 1) (0 : Fin 1) l)
      = if l.val / 32 = k.val then (1 : EReal) else 0 := by
  show FloatOps.sitofp (F := Ideal) .f32 ((IntOp.cmpi .eq
      (select (andi k0_pay4 k0_pay5) (subi k0_pay3 (broadcast S1x1x128 1#32)) k0_pay3 (ix3 (0 : Fin 1) (0 : Fin 1) l))
      (BitVec.ofNat 32 k.val)).setWidth 32) = _
  rw [lane_quot_apply]
  exact maskVal k l

/-! ## Spreading over the lanes and scaling by the frequency -/

/-- Element `(p, g, l)` of the body's argument of sine and cosine: the clipped action `l / 32` of group `g` in row
    `p`, times the frequency of lane `l`. -/
theorem spread_apply (v18 : FVec Ideal S512x16x4 .f32) (x3 : Vec Ideal S1x128 .f32)
    (p : Fin 512) (g : Fin 16) (l : Fin 128) :
    k0_pay6 (F := Ideal) v18 k0_pay3 k0_pay4 k0_pay5 x3 (ix3 p g l)
      = v18 (ix3 p g (laneAct l)) * x3 (ix2 (0 : Fin 1) l) := by
  have hs : ∀ (o : Fin 4) (h : S512x16x4.Slices ![0, 0, o.val] S512x16x1),
      broadcastTo S512x16x128 (extractStridedSlice S512x16x1 ![0, 0, o.val] v18 h) broadcasts_S512x16x1_S512x16x128 (ix3 p g l)
        = v18 (ix3 p g o) :=
    fun o h => (broadcastTo_ab1_abc_apply _ _ p g l).trans (slice_action o v18 h p g 0)
  have hm : ∀ k : Fin 4,
      broadcastTo S512x16x128 (sitofp (F := Ideal) .f32 (extui 32 (cmpi .eq
        (select (andi k0_pay4 k0_pay5) (subi k0_pay3 (broadcast S1x1x128 1#32)) k0_pay3)
        (broadcast S1x1x128 (BitVec.ofNat 32 k.val))) natLt_1_32)) broadcasts_S1x1x128_S512x16x128 (ix3 p g l)
        = if l.val / 32 = k.val then (1 : EReal) else 0 :=
    fun k => (broadcastTo_11c_abc_apply _ _ p g l).trans (indicator_apply k l)
  have hf : broadcastTo S512x16x128 (shapeCast S1x1x128 (shapeCast S1x128 x3 shapeCasts_S1x128_S1x128) shapeCasts_S1x128_S1x1x128)
      broadcasts_S1x1x128_S512x16x128 (ix3 p g l) = x3 (ix2 (0 : Fin 1) l) := by
    refine (broadcastTo_11c_abc_apply _ _ p g l).trans ?_
    rw [shapeCast_self]
    refine (shapeCast_addUnit_apply ![1, 128] x3 shapeCasts_S1x128_S1x1x128 _).trans (congrArg x3 ?_)
    funext a; match a with | ⟨0, _⟩ => rfl | ⟨1, _⟩ => rfl
  have s0 : broadcastTo S512x16x128 (extractStridedSlice S512x16x1 ![0, 0, 0] v18 slices_S512x16x4_o0_0_0_S512x16x1)
      broadcasts_S512x16x1_S512x16x128 (ix3 p g l) = v18 (ix3 p g (0 : Fin 4)) := hs 0 _
  have s1 : broadcastTo S512x16x128 (extractStridedSlice S512x16x1 ![0, 0, 1] v18 slices_S512x16x4_o0_0_1_S512x16x1)
      broadcasts_S512x16x1_S512x16x128 (ix3 p g l) = v18 (ix3 p g (1 : Fin 4)) := hs 1 _
  have s2 : broadcastTo S512x16x128 (extractStridedSlice S512x16x1 ![0, 0, 2] v18 slices_S512x16x4_o0_0_2_S512x16x1)
      broadcasts_S512x16x1_S512x16x128 (ix3 p g l) = v18 (ix3 p g (2 : Fin 4)) := hs 2 _
  have s3 : broadcastTo S512x16x128 (extractStridedSlice S512x16x1 ![0, 0, 3] v18 slices_S512x16x4_o0_0_3_S512x16x1)
      broadcasts_S512x16x1_S512x16x128 (ix3 p g l) = v18 (ix3 p g (3 : Fin 4)) := hs 3 _
  have m0 : broadcastTo S512x16x128 (sitofp (F := Ideal) .f32 (extui 32 (cmpi .eq
        (select (andi k0_pay4 k0_pay5) (subi k0_pay3 (broadcast S1x1x128 1#32)) k0_pay3)
        (broadcast S1x1x128 0#32)) natLt_1_32)) broadcasts_S1x1x128_S512x16x128 (ix3 p g l)
        = if (laneAct l).val = 0 then (1 : EReal) else 0 := hm 0
  have m1 : broadcastTo S512x16x128 (sitofp (F := Ideal) .f32 (extui 32 (cmpi .eq
        (select (andi k0_pay4 k0_pay5) (subi k0_pay3 (broadcast S1x1x128 1#32)) k0_pay3)
        (broadcast S1x1x128 1#32)) natLt_1_32)) broadcasts_S1x1x128_S512x16x128 (ix3 p g l)
        = if (laneAct l).val = 1 then (1 : EReal) else 0 := hm 1
  have m2 : broadcastTo S512x16x128 (sitofp (F := Ideal) .f32 (extui 32 (cmpi .eq
        (select (andi k0_pay4 k0_pay5) (subi k0_pay3 (broadcast S1x1x128 1#32)) k0_pay3)
        (broadcast S1x1x128 2#32)) natLt_1_32)) broadcasts_S1x1x128_S512x16x128 (ix3 p g l)
        = if (laneAct l).val = 2 then (1 : EReal) else 0 := hm 2
  have m3 : broadcastTo S512x16x128 (sitofp (F := Ideal) .f32 (extui 32 (cmpi .eq
        (select (andi k0_pay4 k0_pay5) (subi k0_pay3 (broadcast S1x1x128 1#32)) k0_pay3)
        (broadcast S1x1x128 3#32)) natLt_1_32)) broadcasts_S1x1x128_S512x16x128 (ix3 p g l)
        = if (laneAct l).val = 3 then (1 : EReal) else 0 := hm 3
  unfold k0_pay6
  simp only [mulf_apply, addf_apply]
  rw [s0, s1, s2, s3, m0, m1, m2, m3, hf]
  exact congrArg (· * x3 (ix2 (0 : Fin 1) l)) (pick (fun k => v18 (ix3 p g k)) (laneAct l))

end Cert.Fourier

end
-- ==== Proof.Block.lean ====
/-
  The body's output block as one function of its four input blocks.

  The output block is laid out [512, 2, 16, 128]: batch row, half (0 the sines, 1 the cosines), group, lane. The body
  writes it with two stores, each a whole half: the sines through the rectangle at offset (0, 0, 0, 0), the cosines
  through the one at offset (0, 1, 0, 0), each value first given the half's unit axis. The two rectangles tile the
  block, so the block after the body is, at every element, the value of the one store that covers it: `blockFn`,
  `cell` of the half and of the inputs the element depends on — the action `l / 32` of group `g` in row `p`, the
  box's bounds for that action, and lane `l`'s frequency.
-/
import proofs.«169967_g17566416241471_cont_7to1_1500_2_alg».proof.Proof.Gen.KernelIdeal.Frame
import proofs.«169967_g17566416241471_cont_7to1_1500_2_alg».proof.Proof.Payload

set_option maxRecDepth 16384

noncomputable section

namespace Cert.Fourier

open Idealize.ShloMosaic Idealize.ShloMosaic.ValueIdx Cert.KernelIdeal Cert.KernelIdeal.Gen

/-- Element `(p, h, g, l)` of the output block, from the input blocks. -/
def blockAt (x0 : Vec Ideal S512x16x4 .f32) (x1 x2 : Vec Ideal S1x16x4 .f32) (x3 : Vec Ideal S1x128 .f32)
    (p : Fin 512) (h : Fin 2) (g : Fin 16) (l : Fin 128) : EReal :=
  cell h.val (x0 (ix3 p g (laneAct l))) (x1 (ix3 (0 : Fin 1) g (laneAct l))) (x2 (ix3 (0 : Fin 1) g (laneAct l)))
    (x3 (ix2 (0 : Fin 1) l))

/-- The output block as one function of the input blocks. -/
def blockFn (x0 : Vec Ideal S512x16x4 .f32) (x1 x2 : Vec Ideal S1x16x4 .f32) (x3 : Vec Ideal S1x128 .f32) :
    Vec Ideal S512x2x16x128 .f32 := fun y => blockAt x0 x1 x2 x3 (y 0) (y 1) (y 2) (y 3)

theorem zeros3 : (![0, 0, 0] : Fin 3 → Nat) = fun _ => 0 := funext fun a => by fin_cases a <;> rfl
theorem zeros2 : (![0, 0] : Fin 2 → Nat) = fun _ => 0 := funext fun a => by fin_cases a <;> rfl

/-- A `[512, 16, 128]` value given a unit axis in second place reads, at `(p, u, g, l)`, the value at `(p, g, l)`. -/
theorem addHalfAxis_apply {α : Type} (v : S512x16x128.Idx → α) (h : S512x16x128.ShapeCasts S512x1x16x128)
    (p : Fin 512) (u : Fin 1) (g : Fin 16) (l : Fin 128) :
    shapeCast S512x1x16x128 v h (ix4 p u g l) = v (ix3 p g l) :=
  shapeCast_apply v h _ _ (by
    have h0 : u.val = 0 := by omega
    rw [Shape.rowMajor_val_three, Shape.rowMajor_val_four]
    show (p.val * 16 + g.val) * 128 + l.val = ((p.val * 1 + u.val) * 16 + g.val) * 128 + l.val
    rw [h0]; omega)

/-- The argument of sine and cosine at `(p, g, l)`, from the loaded blocks: the clipped action times the frequency. -/
theorem arg_apply (x0 : Vec Ideal S512x16x4 .f32) (x1 x2 : Vec Ideal S1x16x4 .f32) (x3 : Vec Ideal S1x128 .f32)
    (p : Fin 512) (g : Fin 16) (l : Fin 128) :
    k0_pay6 (F := Ideal) (k0_pay2 x0 x1 x2) k0_pay3 k0_pay4 k0_pay5 x3 (ix3 p g l)
      = clipAct (x0 (ix3 p g (laneAct l))) (x1 (ix3 (0 : Fin 1) g (laneAct l))) (x2 (ix3 (0 : Fin 1) g (laneAct l)))
          * x3 (ix2 (0 : Fin 1) l) := by
  rw [spread_apply, normalised_apply]

/-- Where the cosines' rectangle puts its element `(p, u, g, l)`: the same row, group and lane, in half 1. -/
theorem emb_cos (p : Fin 512) (u : Fin 1) (g : Fin 16) (l : Fin 128) :
    r0_4.emb (ix4 p u g l) = ix4 p (1 : Fin 2) g l := by
  have h0 : u.val = 0 := by omega
  funext a; apply Fin.ext
  match a with
  | ⟨0, _⟩ => show 0 + 1 * p.val = p.val; omega
  | ⟨1, _⟩ => show 1 + 1 * u.val = 1; omega
  | ⟨2, _⟩ => show 0 + 1 * g.val = g.val; omega
  | ⟨3, _⟩ => show 0 + 1 * l.val = l.val; omega

/-- Where the sines' rectangle puts its element `(p, u, g, l)`: the same row, group and lane, in half 0. -/
theorem emb_sin (p : Fin 512) (u : Fin 1) (g : Fin 16) (l : Fin 128) :
    r0_3.emb (ix4 p u g l) = ix4 p (0 : Fin 2) g l := by
  have h0 : u.val = 0 := by omega
  funext a; apply Fin.ext
  match a with
  | ⟨0, _⟩ => show 0 + 1 * p.val = p.val; omega
  | ⟨1, _⟩ => show 0 + 1 * u.val = 0; omega
  | ⟨2, _⟩ => show 0 + 1 * g.val = g.val; omega
  | ⟨3, _⟩ => show 0 + 1 * l.val = l.val; omega

/-- The store of the cosines writes the part of `blockFn` under its rectangle. -/
theorem cos_piece (x0 : Vec Ideal S512x16x4 .f32) (x1 x2 : Vec Ideal S1x16x4 .f32) (x3 : Vec Ideal S1x128 .f32)
    (x : S512x1x16x128.Idx) :
    k0_pay1 (F := Ideal) (k0_pay6 (k0_pay2 x0 x1 x2) k0_pay3 k0_pay4 k0_pay5 x3) x = blockFn x0 x1 x2 x3 (r0_4.emb x) := by
  obtain ⟨p, u, g, l, rfl⟩ : ∃ (p : Fin 512) (u : Fin 1) (g : Fin 16) (l : Fin 128), x = ix4 p u g l :=
    ⟨x 0, x 1, x 2, x 3, eq_ix4 x⟩
  rw [emb_cos]
  unfold k0_pay1
  rw [addHalfAxis_apply]
  show Ideal.cos (k0_pay6 (F := Ideal) (k0_pay2 x0 x1 x2) k0_pay3 k0_pay4 k0_pay5 x3 (ix3 p g l)) = _
  rw [arg_apply]
  show _ = blockAt x0 x1 x2 x3 p (1 : Fin 2) g l
  exact (cell_cos (by decide) _ _ _ _).symm

/-- The store of the sines writes the part of `blockFn` under its rectangle. -/
theorem sin_piece (x0 : Vec Ideal S512x16x4 .f32) (x1 x2 : Vec Ideal S1x16x4 .f32) (x3 : Vec Ideal S1x128 .f32)
    (x : S512x1x16x128.Idx) :
    k0_pay7 (F := Ideal) (k0_pay2 x0 x1 x2) k0_pay3 k0_pay4 k0_pay5 x3 x = blockFn x0 x1 x2 x3 (r0_3.emb x) := by
  obtain ⟨p, u, g, l, rfl⟩ : ∃ (p : Fin 512) (u : Fin 1) (g : Fin 16) (l : Fin 128), x = ix4 p u g l :=
    ⟨x 0, x 1, x 2, x 3, eq_ix4 x⟩
  rw [emb_sin]
  unfold k0_pay7
  rw [addHalfAxis_apply]
  show Ideal.sin (k0_pay6 (F := Ideal) (k0_pay2 x0 x1 x2) k0_pay3 k0_pay4 k0_pay5 x3 (ix3 p g l)) = _
  rw [arg_apply]
  show _ = blockAt x0 x1 x2 x3 p (0 : Fin 2) g l
  exact (cell_sin (by decide) _ _ _ _).symm

/-- THE BLOCK after the body is `blockFn` of the input blocks: each of the two stores writes the part of `blockFn`
    under its rectangle, and the two rectangles cover the block. -/
theorem out_eq (x0 : Vec Ideal S512x16x4 .f32) (x1 x2 : Vec Ideal S1x16x4 .f32) (x3 : Vec Ideal S1x128 .f32) :
    out0_4 (F := Ideal) x0 x1 x2 x3 = blockFn x0 x1 x2 x3 := by
  funext y
  unfold out0_4
  simp only [View.ld_unit_zero (S := S512x16x4) zeros3, View.ld_unit_zero (S := S1x16x4) zeros3,
    View.ld_unit_zero (S := S1x128) zeros2]
  refine View.canon_apply_of_pieces (blockFn x0 x1 x2 x3) _ ?_ y (cover0_4 (F := Ideal) _ _ y)
  intro pc hpc x
  simp only [List.mem_cons, List.mem_nil_iff, or_false] at hpc
  rcases hpc with rfl | rfl
  · exact cos_piece x0 x1 x2 x3 x
  · exact sin_piece x0 x1 x2 x3 x

end Cert.Fourier

end
-- ==== Proof.Region.lean ====
/-
  The region's output array, and the program's result, as functions of the arrays the region is launched on.

  The region runs over 32 grid points; point `t` handles batch rows `512 t … 512 t + 511`. Its windows: the actions
  regrouped `[16384, 16, 4]` (block `t` along the rows), the two bounds `[1, 16, 4]` and the lane frequencies `[1, 128]`
  (whole, at every point), and the output `[16384, 2, 16, 128]` (block `t` along the rows). What point `t` writes back
  is `blockFn` of its input blocks; read through the blocks' places in their arrays that is block `t` of ONE function
  of the four arrays (`regionFn`), the 32 blocks tile the output, so the output array ends holding `regionFn`.

  Around the region the program only re-lays arrays out: before it, the actions `[16384, 64] → [16384, 16, 4]`
  (action `4 g + k` is `(g, k)`), the bounds `[64] → [1, 16, 4]`, the 32 frequencies repeated four times into
  `[1, 128]` (lane `l` holds frequency `l % 32`); after it, the output flattened to `[16384, 4096]`, where
  `(h, g, l)` lands in column `2048 h + 128 g + l`. Read at an index these make the flattened `regionFn` the
  specification `result` of the argument arrays: `4 g + l / 32` is the column's action and `l % 32` its frequency.
-/
import proofs.«169967_g17566416241471_cont_7to1_1500_2_alg».proof.Proof.Block
import Idealize.ShloMosaic.Lib.Pipeline.Value
import Idealize.ShloMosaic.Lib.StableHlo.Run

set_option maxRecDepth 16384

noncomputable section

namespace Cert.Fourier

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The output array as one function of the region's arrays -/

/-- Element `(r, h, g, l)` of the region's output, from the arrays it is launched on. -/
def regionAt (A0 : Vec Ideal S16384x16x4 .f32) (A1 A2 : Vec Ideal S1x16x4 .f32) (A3 : Vec Ideal S1x128 .f32)
    (r : Fin 16384) (h : Fin 2) (g : Fin 16) (l : Fin 128) : EReal :=
  cell h.val (A0 (ix3 r g (laneAct l))) (A1 (ix3 (0 : Fin 1) g (laneAct l))) (A2 (ix3 (0 : Fin 1) g (laneAct l)))
    (A3 (ix2 (0 : Fin 1) l))

/-- The region's output array as one function of the arrays it is launched on. -/
def regionFn (A0 : Vec Ideal S16384x16x4 .f32) (A1 A2 : Vec Ideal S1x16x4 .f32) (A3 : Vec Ideal S1x128 .f32) :
    Vec Ideal S16384x2x16x128 .f32 := fun i => regionAt A0 A1 A2 A3 (i 0) (i 1) (i 2) (i 3)

/-- A grid point is one of 32. -/
theorem point_lt (t : Fin cfg0.N) : t.val < 32 := lt_of_lt_of_eq t.isLt (N_0 : cfg0.N = 32)

/-- Batch row `p` of point `t`'s block is row `512 t + p` of the arrays. -/
def rowOf (t : Fin cfg0.N) (p : Fin 512) : Fin 16384 := ⟨t.val * 512 + p.val, by have := point_lt t; have := p.isLt; omega⟩

/-- The printed index maps, decided over the 32 points: the actions' and the output's blocks move along the rows with
    the point, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0
    ∧ win0_4.index t (3 : Fin 4) = 0 :=
  (by decide +kernel : ∀ t : Fin grid0.N, _)

/-! ## The input blocks, read off their arrays -/

/-- Point `t`'s block of actions at `(p, g, k)` is the regrouped actions at row `512 t + p`. -/
theorem actions_block (c : Dev nD) (t : Fin cfg0.N) (p : Fin 512) (g : Fin 16) (k : Fin 4) :
    iblk m c 0 t (ix3 p g k) = V m c main_v0 (ix3 (rowOf t p) g k) := by
  obtain ⟨e0, e1, e2, -⟩ := idx_facts t
  show V m c main_v0 (((cfg0.win 0).blk t).view.emb (ix3 p g k)) = _
  refine congrArg (V m c main_v0) ?_
  funext a; apply Fin.ext
  match a with
  | ⟨0, _⟩ => show win0_0.index t (0 : Fin 3) * 512 + 1 * p.val = t.val * 512 + p.val; omega
  | ⟨1, _⟩ => show win0_0.index t (1 : Fin 3) * 16 + 1 * g.val = g.val; omega
  | ⟨2, _⟩ => show win0_0.index t (2 : Fin 3) * 4 + 1 * k.val = k.val; omega

/-- Every point's block of lower bounds is the whole array of them. -/
theorem low_block (c : Dev nD) (t : Fin cfg0.N) (u : Fin 1) (g : Fin 16) (k : Fin 4) :
    iblk m c 1 t (ix3 u g k) = V m c main_v1 (ix3 u g k) := by
  obtain ⟨-, -, -, e0, e1, e2, -⟩ := idx_facts t
  show V m c main_v1 (((cfg0.win 1).blk t).view.emb (ix3 u g k)) = _
  refine congrArg (V m c main_v1) ?_
  funext a; apply Fin.ext
  match a with
  | ⟨0, _⟩ => show win0_1.index t (0 : Fin 3) * 1 + 1 * u.val = u.val; omega
  | ⟨1, _⟩ => show win0_1.index t (1 : Fin 3) * 16 + 1 * g.val = g.val; omega
  | ⟨2, _⟩ => show win0_1.index t (2 : Fin 3) * 4 + 1 * k.val = k.val; omega

/-- Every point's block of upper bounds is the whole array of them. -/
theorem high_block (c : Dev nD) (t : Fin cfg0.N) (u : Fin 1) (g : Fin 16) (k : Fin 4) :
    iblk m c 2 t (ix3 u g k) = V m c main_v2 (ix3 u g k) := by
  obtain ⟨-, -, -, -, -, -, e0, e1, e2, -⟩ := idx_facts t
  show V m c main_v2 (((cfg0.win 2).blk t).view.emb (ix3 u g k)) = _
  refine congrArg (V m c main_v2) ?_
  funext a; apply Fin.ext
  match a with
  | ⟨0, _⟩ => show win0_2.index t (0 : Fin 3) * 1 + 1 * u.val = u.val; omega
  | ⟨1, _⟩ => show win0_2.index t (1 : Fin 3) * 16 + 1 * g.val = g.val; omega
  | ⟨2, _⟩ => show win0_2.index t (2 : Fin 3) * 4 + 1 * k.val = k.val; omega

/-- Every point's block of lane frequencies is the whole array of them. -/
theorem freq_block (c : Dev nD) (t : Fin cfg0.N) (u : Fin 1) (l : Fin 128) :
    iblk m c 3 t (ix2 u l) = V m c main_v6 (ix2 u l) := by
  obtain ⟨-, -, -, -, -, -, -, -, -, e0, e1, -⟩ := idx_facts t
  show V m c main_v6 (((cfg0.win 3).blk t).view.emb (ix2 u l)) = _
  refine congrArg (V m c main_v6) ?_
  funext a; apply Fin.ext
  match a with
  | ⟨0, _⟩ => show win0_3.index t (0 : Fin 2) * 1 + 1 * u.val = u.val; omega
  | ⟨1, _⟩ => show win0_3.index t (1 : Fin 2) * 128 + 1 * l.val = l.val; omega

/-- Where point `t`'s output block puts its element `(p, h, g, l)`: row `512 t + p`, the same half, group and lane. -/
theorem out_place (t : Fin cfg0.N) (p : Fin 512) (h : Fin 2) (g : Fin 16) (l : Fin 128) :
    ((cfg0.win 4).blk t).view.emb (ix4 p h g l) = ix4 (rowOf t p) h g l := by
  obtain ⟨-, -, -, -, -, -, -, -, -, -, -, e0, e1, e2, e3⟩ := idx_facts t
  funext a; apply Fin.ext
  match a with
  | ⟨0, _⟩ => show win0_4.index t (0 : Fin 4) * 512 + 1 * p.val = t.val * 512 + p.val; omega
  | ⟨1, _⟩ => show win0_4.index t (1 : Fin 4) * 2 + 1 * h.val = h.val; omega
  | ⟨2, _⟩ => show win0_4.index t (2 : Fin 4) * 16 + 1 * g.val = g.val; omega
  | ⟨3, _⟩ => show win0_4.index t (3 : Fin 4) * 128 + 1 * l.val = l.val; omega

/-! ## From blocks to the array -/

/-- WHAT POINT `t` WRITES BACK is block `t` of `regionFn` of the arrays as the region finds them. -/
theorem flushed_eq (c : Dev nD) (t : Fin cfg0.N) :
    (dats m 0 c).flushed 4 t = ((cfg0.win 4).blk t).view.read (Elt Ideal)
      (regionFn (V m c main_v0) (V m c main_v1) (V m c main_v2) (V m c main_v6)) := by
  show (cfg0.win 4).cut (grid0.coords t) ((dats m 0 c).after 4 t) = _
  rw [after0_4, out_eq]
  funext y
  obtain ⟨p, h, g, l, rfl⟩ : ∃ (p : Fin 512) (h : Fin 2) (g : Fin 16) (l : Fin 128), y = ix4 p h g l :=
    ⟨y 0, y 1, y 2, y 3, eq_ix4 y⟩
  show blockAt (iblk m c 0 t) (iblk m c 1 t) (iblk m c 2 t) (iblk m c 3 t) p h g l
    = regionFn (V m c main_v0) (V m c main_v1) (V m c main_v2) (V m c main_v6) (((cfg0.win 4).blk t).view.emb (ix4 p h g l))
  rw [out_place]
  show _ = regionAt (V m c main_v0) (V m c main_v1) (V m c main_v2) (V m c main_v6) (rowOf t p) h g l
  unfold blockAt regionAt
  rw [actions_block, low_block, high_block, freq_block]

/-- An index of the output array is in point `t`'s block iff each coordinate is in the block's range on its axis. -/
theorem mem_blk (t : Fin cfg0.N) (i : S16384x2x16x128.Idx) :
    i ∈ ((cfg0.win 4).blk t).view.set ↔ ∀ a : Fin 4, win0_4.index t a * S512x2x16x128.size a ≤ (i a).val
      ∧ (i a).val < win0_4.index t a * S512x2x16x128.size a + S512x2x16x128.size a := by
  show i ∈ ((View.whole main_v7).slice (win0_4.rect t)).set ↔ _
  rw [View.set_slice_whole, Rect.mem_set_unit]
  exact Iff.rfl

/-- The 32 blocks tile the output array: row `r` is in the block of point `r / 512`. -/
theorem covered (i : S16384x2x16x128.Idx) :
    ∃ t : Fin cfg0.N, (cfg0.win 4).flush t = true ∧ i ∈ ((cfg0.win 4).blk t).view.set := by
  have h0 : (i 0).val < 16384 := (i 0).isLt
  have h1 : (i 1).val < 2 := (i 1).isLt
  have h2 : (i 2).val < 16 := (i 2).isLt
  have h3 : (i 3).val < 128 := (i 3).isLt
  have hN : (i 0).val / 512 < cfg0.N :=
    lt_of_lt_of_eq (show (i 0).val / 512 < 32 by omega) (N_0 : cfg0.N = 32).symm
  obtain ⟨-, -, -, -, -, -, -, -, -, -, -, e0, e1, e2, e3⟩ := idx_facts ⟨(i 0).val / 512, hN⟩
  have e0' : win0_4.index ⟨(i 0).val / 512, hN⟩ (0 : Fin 4) = (i 0).val / 512 := e0
  refine ⟨⟨(i 0).val / 512, hN⟩, flush0_4 _, ?_⟩
  rw [mem_blk]
  intro a
  match a with
  | ⟨0, _⟩ =>
    show win0_4.index ⟨(i 0).val / 512, hN⟩ (0 : Fin 4) * 512 ≤ (i 0).val
      ∧ (i 0).val < win0_4.index ⟨(i 0).val / 512, hN⟩ (0 : Fin 4) * 512 + 512
    omega
  | ⟨1, _⟩ =>
    show win0_4.index ⟨(i 0).val / 512, hN⟩ (1 : Fin 4) * 2 ≤ (i 1).val
      ∧ (i 1).val < win0_4.index ⟨(i 0).val / 512, hN⟩ (1 : Fin 4) * 2 + 2
    omega
  | ⟨2, _⟩ =>
    show win0_4.index ⟨(i 0).val / 512, hN⟩ (2 : Fin 4) * 16 ≤ (i 2).val
      ∧ (i 2).val < win0_4.index ⟨(i 0).val / 512, hN⟩ (2 : Fin 4) * 16 + 16
    omega
  | ⟨3, _⟩ =>
    show win0_4.index ⟨(i 0).val / 512, hN⟩ (3 : Fin 4) * 128 ≤ (i 3).val
      ∧ (i 3).val < win0_4.index ⟨(i 0).val / 512, hN⟩ (3 : Fin 4) * 128 + 128
    omega

/-- THE OUTPUT ARRAY after the run is `regionFn` of the arrays as the region finds them. -/
theorem region_array (c : Dev nD) :
    (dats m 0 c).arrAt 4 cfg0.N = regionFn (V m c main_v0) (V m c main_v1) (V m c main_v2) (V m c main_v6) :=
  (dats m 0 c).arrAt_eq_of_cover 4 _ (fun t _ => flushed_eq m c t) covered

end Cert.Fourier

end
-- ==== Proof.Program.lean ====
/-
  The kernel program's result is `Cert.Fourier.result` of its arguments.

  The lines of the program before the region only re-lay the arguments out, and the one line after it flattens the
  region's output; each is read at an index here, and the flattened `regionFn` of the re-laid arguments is `result`:
    actions  `[16384, 64] → [16384, 16, 4]`: `(r, g, k)` holds action `4 g + k` of row `r`;
    bounds   `[64] → [1, 16, 4]`:           `(0, g, k)` holds bound `4 g + k`;
    frequencies `[32] → [1, 32] → [4, 32] → [128] → [1, 128]`: lane `l` holds frequency `l % 32`;
    output   `[16384, 2, 16, 128] → [16384, 4096]`: column `j` of row `b` is `(b, j / 2048, j % 2048 / 128, j % 128)`.
  So at column `j` the group is `g = j % 2048 / 128`, the lane `l = j % 128`, the action `4 g + l / 32 = j % 2048 / 32`
  and the frequency `l % 32 = j % 32`: the specification's `actOf j` and `bandOf j`.
-/
import proofs.«169967_g17566416241471_cont_7to1_1500_2_alg».proof.Proof.Region

set_option maxRecDepth 16384

noncomputable section

namespace Cert.Fourier

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The lines before the region -/

/-- The regrouped actions at `(r, g, k)`: action `4 g + k` of row `r`. -/
theorem pre_actions (c : Dev nD) (r : Fin 16384) (g : Fin 16) (k : Fin 4) (a : Fin 64) (ha : a.val = 4 * g.val + k.val) :
    V m c main_v0 (ix3 r g k) = m ((c : Thread nD τ).loc main_arg0) (ix2 r a) := by
  have e : (V m c main_v0 : S16384x16x4.Idx → EReal)
      = shapeCast S16384x16x4 (m ((c : Thread nD τ).loc main_arg0)) shapeCasts_S16384x64_S16384x16x4 := by
    show StableHlo.after hostOps0 (fun b => m (c, b)) (Proc.devRef .tc main_v0) = _
    after_results; rfl
  rw [e]
  exact shapeCast_apply _ _ _ _ (by
    show (S16384x64.rowMajor (ix2 r a)).val = (S16384x16x4.rowMajor (ix3 r g k)).val
    rw [Shape.rowMajor_val_two, Shape.rowMajor_val_three]
    show r.val * 64 + a.val = (r.val * 16 + g.val) * 4 + k.val
    omega)

/-- The lower bounds as a row `[1, 16, 4]`, at `(0, g, k)`: bound `4 g + k`. -/
theorem pre_low (c : Dev nD) (u : Fin 1) (g : Fin 16) (k : Fin 4) (a : Fin 64) (ha : a.val = 4 * g.val + k.val) :
    V m c main_v1 (ix3 u g k) = m ((c : Thread nD τ).loc main_arg1) (ix1 a) := by
  have e : (V m c main_v1 : S1x16x4.Idx → EReal)
      = shapeCast S1x16x4 (m ((c : Thread nD τ).loc main_arg1)) shapeCasts_S64_S1x16x4 := by
    show StableHlo.after hostOps0 (fun b => m (c, b)) (Proc.devRef .tc main_v1) = _
    after_results; rfl
  rw [e]
  exact shapeCast_apply _ _ _ _ (by
    have hu : u.val = 0 := by omega
    show (S64.rowMajor (ix1 a)).val = (S1x16x4.rowMajor (ix3 u g k)).val
    rw [Shape.rowMajor_val_one, Shape.rowMajor_val_three]
    show a.val = (u.val * 16 + g.val) * 4 + k.val
    omega)

/-- The upper bounds as a row `[1, 16, 4]`, at `(0, g, k)`: bound `4 g + k`. -/
theorem pre_high (c : Dev nD) (u : Fin 1) (g : Fin 16) (k : Fin 4) (a : Fin 64) (ha : a.val = 4 * g.val + k.val) :
    V m c main_v2 (ix3 u g k) = m ((c : Thread nD τ).loc main_arg2) (ix1 a) := by
  have e : (V m c main_v2 : S1x16x4.Idx → EReal)
      = shapeCast S1x16x4 (m ((c : Thread nD τ).loc main_arg2)) shapeCasts_S64_S1x16x4 := by
    show StableHlo.after hostOps0 (fun b => m (c, b)) (Proc.devRef .tc main_v2) = _
    after_results; rfl
  rw [e]
  exact shapeCast_apply _ _ _ _ (by
    have hu : u.val = 0 := by omega
    show (S64.rowMajor (ix1 a)).val = (S1x16x4.rowMajor (ix3 u g k)).val
    rw [Shape.rowMajor_val_one, Shape.rowMajor_val_three]
    show a.val = (u.val * 16 + g.val) * 4 + k.val
    omega)

/-- The lane frequencies `[1, 128]` at lane `l`: frequency `l % 32` (the 32 frequencies repeated four times). -/
theorem pre_freq (c : Dev nD) (u : Fin 1) (l : Fin 128) (f : Fin 32) (hf : f.val = l.val % 32) :
    V m c main_v6 (ix2 u l) = m ((c : Thread nD τ).loc main_arg3) (ix1 f) := by
  have e : (V m c main_v6 : S1x128.Idx → EReal)
      = shapeCast S1x128 (shapeCast S128 (broadcastInDim S4x32 ![0, 1] bcast_S1x32_S4x32_0_1
          (shapeCast S1x32 (m ((c : Thread nD τ).loc main_arg3)) shapeCasts_S32_S1x32)) shapeCasts_S4x32_S128)
          shapeCasts_S128_S1x128 := by
    show StableHlo.after hostOps0 (fun b => m (c, b)) (Proc.devRef .tc main_v6) = _
    after_results; rfl
  have hu : u.val = 0 := by omega
  have hl : l.val < 128 := l.isLt
  rw [e]
  refine (shapeCast_apply _ shapeCasts_S128_S1x128 (ix2 u l) (ix1 l) (by
    rw [Shape.rowMajor_val_one, Shape.rowMajor_val_two]
    show l.val = u.val * 128 + l.val
    omega)).trans ?_
  refine (shapeCast_apply _ shapeCasts_S4x32_S128 (ix1 l) (ix2 (⟨l.val / 32, by omega⟩ : Fin 4) f) (by
    rw [Shape.rowMajor_val_two, Shape.rowMajor_val_one]
    show l.val / 32 * 32 + f.val = l.val
    omega)).trans ?_
  refine (broadcastInDim_apply _ bcast_S1x32_S4x32_0_1 _ _ (ix2 (0 : Fin 1) f) (fun a => match a with
    | ⟨0, _⟩ => by show 0 = if (1 : Nat) = 1 then 0 else _; rw [if_pos rfl]
    | ⟨1, _⟩ => by show f.val = if (32 : Nat) = 1 then 0 else f.val; rw [if_neg (by decide)])).trans ?_
  exact shapeCast_apply _ shapeCasts_S32_S1x32 _ (ix1 f) (by
    show (S32.rowMajor (ix1 f)).val = (S1x32.rowMajor (ix2 (0 : Fin 1) f)).val
    rw [Shape.rowMajor_val_one, Shape.rowMajor_val_two]
    show f.val = 0 * 32 + f.val
    omega)

/-! ## The line after the region -/

/-- The program's result buffer after the run: the region's output array, flattened. -/
theorem tail_eq (c : Dev nD) :
    Pipeline.afterTail₀ cfgs (dats m) 0 (V0 m) [hostOps1] c main_v8
      = shapeCast S16384x4096 (regionFn (V m c main_v0) (V m c main_v1) (V m c main_v2) (V m c main_v6))
          shapeCasts_S16384x2x16x128_S16384x4096 := by
  unfold Pipeline.afterTail₀
  show StableHlo.after hostOps1 _ (Proc.devRef .tc main_v8) = _
  after_results
  exact congrArg (fun v => shapeCast S16384x4096 v shapeCasts_S16384x2x16x128_S16384x4096)
    ((Pipeline.withArrays_arr spec0 launch0.win.arr_inj c _ _ 4).trans (region_array m c))

/-! ## The flattened output is the specification -/

/-- THE PROGRAM'S VALUE: the flattened `regionFn` of the re-laid arguments is `result` of the arguments. -/
theorem program_value (c : Dev nD) :
    shapeCast S16384x4096 (regionFn (V m c main_v0) (V m c main_v1) (V m c main_v2) (V m c main_v6))
        shapeCasts_S16384x2x16x128_S16384x4096
      = result (m ((c : Thread nD τ).loc main_arg0)) (m ((c : Thread nD τ).loc main_arg1))
          (m ((c : Thread nD τ).loc main_arg2)) (m ((c : Thread nD τ).loc main_arg3)) := by
  funext i
  obtain ⟨b, col, rfl⟩ : ∃ (b : Fin 16384) (col : Fin 4096), i = ix2 b col := ⟨i 0, i 1, eq_ix2 i⟩
  have hc : col.val < 4096 := col.isLt
  refine (shapeCast_apply _ shapeCasts_S16384x2x16x128_S16384x4096 (ix2 b col)
    (ix4 b (⟨col.val / 2048, by omega⟩ : Fin 2) (⟨col.val % 2048 / 128, by omega⟩ : Fin 16) (⟨col.val % 128, by omega⟩ : Fin 128)) (by
      rw [Shape.rowMajor_val_four, Shape.rowMajor_val_two]
      show ((b.val * 2 + col.val / 2048) * 16 + col.val % 2048 / 128) * 128 + col.val % 128 = b.val * 4096 + col.val
      omega)).trans ?_
  show regionAt (V m c main_v0) (V m c main_v1) (V m c main_v2) (V m c main_v6) b (⟨col.val / 2048, by omega⟩ : Fin 2)
      (⟨col.val % 2048 / 128, by omega⟩ : Fin 16) (⟨col.val % 128, by omega⟩ : Fin 128) = _
  unfold regionAt
  rw [pre_actions m c b _ _ (actOf col) (by show col.val % 2048 / 32 = 4 * (col.val % 2048 / 128) + col.val % 128 / 32; omega),
    pre_low m c 0 _ _ (actOf col) (by show col.val % 2048 / 32 = 4 * (col.val % 2048 / 128) + col.val % 128 / 32; omega),
    pre_high m c 0 _ _ (actOf col) (by show col.val % 2048 / 32 = 4 * (col.val % 2048 / 128) + col.val % 128 / 32; omega),
    pre_freq m c 0 _ (bandOf col) (by show col.val % 32 = col.val % 128 % 32; omega)]
  rfl

/-! ## The run -/

/-- Every weakly fair execution of the kernel program terminates with its result at `result` of the arguments and
    the arguments unchanged: the generated frame run, its post read at the result buffer and at the arguments. -/
theorem kernel_run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v8 (Pipeline.mem_restRefs_of main_v8 (by decide) (by decide))).trans
        ((tail_eq m c).trans (program_value m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Fourier

end
-- ==== Proof.Reference.lean ====
/-
  The reference computes `Cert.Fourier.result`.

  The reference normalises and clips the whole `[16384, 64]` array of actions, multiplies every action by every one of
  the 32 frequencies into `[16384, 64, 32]`, flattens that to `[16384, 2048]` — column `j` is action `j / 32` times
  frequency `j % 32` — and joins its sine and its cosine side by side. Each stage is read at an index through the
  generated stage lemmas; the join is read in its first piece for a column below 2048 and in its second, 2048 columns
  further, otherwise.
-/
import proofs.«169967_g17566416241471_cont_7to1_1500_2_alg».proof.Proof.Gen.ReferenceIdeal.Read
import proofs.«169967_g17566416241471_cont_7to1_1500_2_alg».proof.Proof.Lanes
import Idealize.ShloMosaic.Lib.Pipeline.Value
import Idealize.ShloMosaic.Lib.ValueIdx

noncomputable section

namespace Cert.Fourier

open Idealize.ShloMosaic Idealize.ShloMosaic.ValueIdx Cert.ReferenceIdeal Cert.ReferenceIdeal.Gen Cert.ReferenceIdeal.Read

/-- The argument of sine and cosine at row `b` and flattened column `j`, where `j` is result column `col` within its
    half: the clipped action `actOf col` of row `b` times frequency `bandOf col`. -/
theorem ref_arg_apply (x0 : (⟨S16384x64, .f32⟩ : BufTy).Contents (Elt Ideal)) (x1 x2 : (⟨S64, .f32⟩ : BufTy).Contents (Elt Ideal))
    (x3 : (⟨S32, .f32⟩ : BufTy).Contents (Elt Ideal)) (b : Fin 16384) (col : Fin 4096) (j : Fin 2048)
    (hj : j.val = col.val % 2048) :
    val_main_v17 (F := Ideal) x0 x1 x2 x3 (ix2 b j)
      = clipAct (x0 (ix2 b (actOf col))) (x1 (ix1 (actOf col))) (x2 (ix1 (actOf col))) * x3 (ix1 (bandOf col)) := by
  have hb : b.val < 16384 := b.isLt
  have hjl : j.val < 2048 := j.isLt
  have e17 : idx_main_v17 (ix2 b j) = ix3 b (actOf col) (bandOf col) := by
    funext a; apply Fin.ext
    match a with
    | ⟨0, _⟩ => show (b.val * 2048 + j.val) / 2048 = b.val; omega
    | ⟨1, _⟩ => show (b.val * 2048 + j.val) / 32 % 64 = col.val % 2048 / 32; omega
    | ⟨2, _⟩ => show (b.val * 2048 + j.val) % 32 = col.val % 32; omega
  have eAct : idx_main_v12 (idx_main_v14 (ix3 b (actOf col) (bandOf col))) = ix2 b (actOf col) := by
    funext a; apply Fin.ext
    match a with
    | ⟨0, _⟩ => rfl
    | ⟨1, _⟩ => rfl
  have eLo : idx_main_v0 (idx_main_v1 (ix2 b (actOf col))) = ix1 (actOf col) := by
    funext a; apply Fin.ext
    match a with
    | ⟨0, _⟩ => rfl
  have eSc : idx_main_v6 (idx_main_v7 (ix2 b (actOf col))) = ix1 (actOf col) := by
    funext a; apply Fin.ext
    match a with
    | ⟨0, _⟩ => rfl
  have eFr : idx_main_v13 (idx_main_v15 (ix3 b (actOf col) (bandOf col))) = ix1 (bandOf col) := by
    funext a; apply Fin.ext
    match a with
    | ⟨0, _⟩ => rfl
  simp only [val_main_v17_apply, val_main_v16_apply, val_main_v14_apply, val_main_v12_apply, val_main_v11_apply,
    val_main_call0_v4_apply, val_main_call0_v3_apply, val_main_cst_2_apply, val_main_call0_v2_apply,
    val_main_call0_v1_apply, val_main_call0_v0_apply, val_main_cst_1_apply, val_main_v10_apply, val_main_v8_apply,
    val_main_v2_apply, val_main_v1_apply, val_main_v0_apply, val_main_v7_apply, val_main_v6_apply, val_main_v5_apply,
    val_main_v4_apply, val_main_cst_apply, val_main_v3_apply, val_main_v9_apply, val_main_cst_0_apply,
    val_main_v15_apply, val_main_v13_apply, e17, eAct, eLo, eSc, eFr]
  rfl

/-- THE REFERENCE'S RESULT is `result` of its arguments. -/
theorem reference_eq (x0 : (⟨S16384x64, .f32⟩ : BufTy).Contents (Elt Ideal)) (x1 x2 : (⟨S64, .f32⟩ : BufTy).Contents (Elt Ideal))
    (x3 : (⟨S32, .f32⟩ : BufTy).Contents (Elt Ideal)) :
    val_main_v20 (F := Ideal) x0 x1 x2 x3 = result x0 x1 x2 x3 := by
  funext i
  obtain ⟨b, col, rfl⟩ : ∃ (b : Fin 16384) (col : Fin 4096), i = ix2 b col := ⟨i 0, i 1, eq_ix2 i⟩
  have hc : col.val < 4096 := col.isLt
  unfold val_main_v20
  by_cases h : col.val < 2048
  · refine (concatenate_pair_apply_left (t := S16384x4096) (s₁ := S16384x2048) (s₂ := S16384x2048) (1 : Fin 2) _ _ _
      (ix2 b col) rfl (ix2 b (⟨col.val, h⟩ : Fin 2048)) (fun a => match a with | ⟨0, _⟩ => rfl | ⟨1, _⟩ => rfl)).trans ?_
    rw [val_main_v18_apply, ref_arg_apply x0 x1 x2 x3 b col ⟨col.val, h⟩ (by show col.val = col.val % 2048; omega)]
    exact (cell_sin (show col.val / 2048 = 0 by omega) _ _ _ _).symm
  · refine (concatenate_pair_apply_right (t := S16384x4096) (s₁ := S16384x2048) (s₂ := S16384x2048) (1 : Fin 2) _ _ _
      (ix2 b col) rfl rfl (ix2 b (⟨col.val - 2048, by omega⟩ : Fin 2048))
      (fun a => match a with | ⟨0, _⟩ => fun _ => rfl | ⟨1, _⟩ => fun hne => absurd rfl hne)
      (by show col.val - 2048 + 2048 = col.val; omega)).trans ?_
    rw [val_main_v19_apply, ref_arg_apply x0 x1 x2 x3 b col ⟨col.val - 2048, by omega⟩ (by show col.val - 2048 = col.val % 2048; omega)]
    exact (cell_cos (show col.val / 2048 ≠ 0 by omega) _ _ _ _).symm

end Cert.Fourier

end
-- ==== Proof.lean ====
/- The proof of `Cert.Claim`: a kernel that embeds box-bounded actions in Fourier features against its jnp reference.

   Both programs take actions `[16384, 64]`, the box's lower and upper bounds `[64]` and 32 frequencies, normalise
   each action to [-1, 1] by its bounds, `x = min 1 (max (-1) ((a - lo) · (2 / (hi - lo)) + 1))`, and return
   `[16384, 4096]`: for each row the sines of all 64 × 32 products `x · f` followed by their cosines. The reference
   forms the products as an outer product and joins the two halves; the kernel works on 32 blocks of 512 rows, keeps
   four actions per 128-lane register (lane `l` takes action `l / 32` and frequency `l % 32`), selects the lane's action
   by a sum of four action-times-indicator products, and writes the halves of a `[16384, 2, 16, 128]` array that is
   flattened afterwards.

   At the extended reals both results are ONE function of the arguments, `Cert.Fourier.result` (Proof/Lanes.lean):
   every float operation is the same exact operation in both programs, and the kernel's only extra arithmetic, the
   four-term indicator sum, is its selected term by `x · 1 = x`, `x · 0 = 0`, `0 + x = x`, which hold for all
   extended reals — so the value claim never uses the precondition. The kernel side is Proof/Payload.lean (the body
   at one element), Proof/Block.lean (the block the body leaves), Proof/Region.lean (the 32 blocks tile the output)
   and Proof/Program.lean (the re-layouts around the region; the run); the reference side is Proof/Reference.lean.
   The frames are the generated ones; the idealization rewrote nothing, so `preserves` is trivial. -/
import proofs.«169967_g17566416241471_cont_7to1_1500_2_alg».proof.Defs
import proofs.«169967_g17566416241471_cont_7to1_1500_2_alg».proof.Proof.Gen.Kernel
import proofs.«169967_g17566416241471_cont_7to1_1500_2_alg».proof.Proof.Gen.Kernel.Skeleton
import proofs.«169967_g17566416241471_cont_7to1_1500_2_alg».proof.Proof.Gen.Kernel.Launch
import proofs.«169967_g17566416241471_cont_7to1_1500_2_alg».proof.Proof.Gen.Kernel.Points
import proofs.«169967_g17566416241471_cont_7to1_1500_2_alg».proof.Proof.Gen.Kernel.Frame
import proofs.«169967_g17566416241471_cont_7to1_1500_2_alg».proof.Proof.Gen.KernelIdeal
import proofs.«169967_g17566416241471_cont_7to1_1500_2_alg».proof.Proof.Gen.KernelIdeal.Skeleton
import proofs.«169967_g17566416241471_cont_7to1_1500_2_alg».proof.Proof.Gen.KernelIdeal.Launch
import proofs.«169967_g17566416241471_cont_7to1_1500_2_alg».proof.Proof.Gen.KernelIdeal.Points
import proofs.«169967_g17566416241471_cont_7to1_1500_2_alg».proof.Proof.Gen.KernelIdeal.Frame
import proofs.«169967_g17566416241471_cont_7to1_1500_2_alg».proof.Proof.Gen.ReferenceIdeal
import proofs.«169967_g17566416241471_cont_7to1_1500_2_alg».proof.Proof.Gen.ReferenceIdeal.Run
import proofs.«169967_g17566416241471_cont_7to1_1500_2_alg».proof.Proof.Gen.ReferenceIdeal.Read
import proofs.«169967_g17566416241471_cont_7to1_1500_2_alg».proof.Proof.Gen.Pre_finite_inputs
import proofs.«169967_g17566416241471_cont_7to1_1500_2_alg».proof.Proof.Program
import proofs.«169967_g17566416241471_cont_7to1_1500_2_alg».proof.Proof.Reference
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at `Cert.Fourier.result` of the arguments. -/
theorem algebraic : Cert.algebraic_KernelIdeal_ReferenceIdeal := by
  intro m ρ m' ρ' _ hagree
  refine ⟨fun c => Cert.Fourier.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Fourier.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.Fourier.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
